-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S16384x512 : Shape := ⟨2, ![16384, 512]⟩
abbrev S16384x100 : Shape := ⟨2, ![16384, 100]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S16384x100 : S_.BroadcastsInDim S16384x100 (![] : Fin 0 → Fin S16384x100.rank)
  reducesTo_S16384x100_S_d0_1 : S16384x100.ReducesTo [0, 1] S_

variable [Facts]

def fn {F : FTy → Type} [FloatOps F] (main_arg0 : FVec F S4096x512 .f32) (main_arg1 : FVec F S16384x512 .f32) (main_arg2 : FVec F S16384x100 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x100 .f32 := Host.absf main_arg2
  let main_cst_2 : FVec F S_ .f32 := constant S_ .f32 0x7F800000#32
  let main_v10 : FVec F S16384x100 .f32 := broadcastInDim S16384x100 ![] bcast_S_S16384x100 main_cst_2
  let main_v11 : IVec S16384x100 1 := cmpf .olt main_v9 main_v10
  let main_c_3 : IVec S_ 1 := constantI S_ 1 1#1
  let main_v12 : IVec S_ 1 := (fun x v => Host.reduce IntOp.andi x v reducesTo_S16384x100_S_d0_1 h_S_) main_v11 main_c_3
  let main_v13 : IVec S_ 1 := andi main_v8 main_v12
  main_v13
-- ==== Kernel.lean ====
abbrev S4096x512 : Shape := ⟨2, ![4096, 512]⟩
abbrev S16384x512 : Shape := ⟨2, ![16384, 512]⟩
abbrev S16384x100 : Shape := ⟨2, ![16384, 100]⟩
abbrev S4096x100 : Shape := ⟨2, ![4096, 100]⟩
abbrev S1024x512 : Shape := ⟨2, ![1024, 512]⟩
abbrev S1024x100 : Shape := ⟨2, ![1024, 100]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S16384x512, .f32⟩
  | .hbm, ⟨2, _⟩ => ⟨S16384x100, .f32⟩
  | .hbm, ⟨3, _⟩ => ⟨S4096x100, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x100, .f32⟩
  | .local _ .vmem, ⟨5, _⟩ => ⟨S1024x100, .f32⟩
  | .local _ .vmem, ⟨6, _⟩ => ⟨S1024x100, .f32⟩
  | .local _ .vmem, ⟨7, _⟩ => ⟨S1024x100, .f32⟩
  | .local _ .vmem, ⟨8, _⟩ => ⟨S1024x100, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x100_S1024x100_0_0 : ∀ a, (![0, 0] : Fin 2 → Nat) a + S1024x100.size a ≤ S1024x100.size a
  h_S1024x100 : 0 < S1024x100.numel
  shapeCasts_S1024x100_S1024x100 : S1024x100.ShapeCasts S1024x100
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  bitsLt_bf16_f32 : FTy.bits .bf16 < FTy.bits .f32
  broadcasts_S1024x1_S1024x1024 : S1024x1.Broadcasts S1024x1024
  transposes_S1024x1_p1_0_S1x1024 : S1024x1.Transposes [1, 0] S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  dot_S1024x1024_S1024x100_S1024x100_1_0_0_1_n_n_wf : DotDims.WF S1024x1024 S1024x100 S1024x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x100.size a ≤ S16384x100.size a
  hwx0_2 : ∀ i : grid0.Coords, EltTy.bits .f32 = 32 ∨ (Rect.block (s := S16384x100) S1024x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x100.size a ≤ S4096x100.size a
  hwx0_3 : ∀ i : grid0.Coords, EltTy.bits .f32 = 32 ∨ (Rect.block (s := S4096x100) S1024x100.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x100_S1024x100_1_0_0_1_n_n : DotDims S1024x1024 S1024x100 S1024x100 where
  lhsContracting := [1]
  rhsContracting := [0]
  lhsNonContracting := [0]
  rhsNonContracting := [1]
  lhsBatch := []
  rhsBatch := []
  wf := dot_S1024x1024_S1024x100_S1024x100_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x512 : Shape := ⟨2, ![4096, 512]⟩
abbrev S16384x512 : Shape := ⟨2, ![16384, 512]⟩
abbrev S16384x100 : Shape := ⟨2, ![16384, 100]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S512x4096 : Shape := ⟨2, ![512, 4096]⟩
abbrev S16384x4096 : Shape := ⟨2, ![16384, 4096]⟩
abbrev S4096x16384 : Shape := ⟨2, ![4096, 16384]⟩
abbrev S4096x100 : Shape := ⟨2, ![4096, 100]⟩

abbrev nBuf : Space → Nat
  | .hbm => 28
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S16384x512, .f32⟩
  | .hbm, ⟨2, _⟩ => ⟨S16384x100, .f32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S512x4096, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S4096x16384, .f32⟩
  | .hbm, ⟨27, _⟩ => ⟨S4096x100, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  bcast_S4096_S1x4096_1 : S4096.BroadcastsInDim S1x4096 (![1] : Fin 1 → Fin S1x4096.rank)
  transposes_S4096x512_S512x4096_1_0 : S4096x512.Transposes [1, 0] S512x4096
  bcast_S_S16384x4096 : S_.BroadcastsInDim S16384x4096 (![] : Fin 0 → Fin S16384x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  transposes_S16384x4096_S4096x16384_1_0 : S16384x4096.Transposes [1, 0] S4096x16384
  dot_S16384x512_S512x4096_S16384x4096_1_0_0_1_n_n_wf : DotDims.WF S16384x512 S512x4096 S16384x4096 [1] [0] [0] [1] [] []
  dot_S4096x16384_S16384x100_S4096x100_1_0_0_1_n_n_wf : DotDims.WF S4096x16384 S16384x100 S4096x100 [1] [0] [0] [1] [] []

variable [Facts₀]

def dot_S16384x512_S512x4096_S16384x4096_1_0_0_1_n_n : DotDims S16384x512 S512x4096 S16384x4096 where
  lhsContracting := [1]
  rhsContracting := [0]
  lhsNonContracting := [0]
  rhsNonContracting := [1]
  lhsBatch := []
  rhsBatch := []
  wf := dot_S16384x512_S512x4096_S16384x4096_1_0_0_1_n_n_wf
def dot_S4096x16384_S16384x100_S4096x100_1_0_0_1_n_n : DotDims S4096x16384 S16384x100 S4096x100 where
  lhsContracting := [1]
  rhsContracting := [0]
  lhsNonContracting := [0]
  rhsNonContracting := [1]
  lhsBatch := []
  rhsBatch := []
  wf := dot_S4096x16384_S16384x100_S4096x100_1_0_0_1_n_n_wf

class Facts : Prop extends Facts₀ where

variable [Facts]
-- ==== Proof.LibERealStats.lean ====
/-
  General lemmas on the extended reals for batch statistics (mean and variance) computed from
  per-tile partial sums. Nothing here mentions a program: the index types are abstract finite
  types, and the only operation beyond Mathlib's is the quotient `div` of the ideal float values
  (`x * y⁻¹` off zero).

  Contents:
  * `IsReal` — an extended real that is the image of a real number — and its closure under the
    arithmetic operations, finite sums, and the quotient by a nonzero real;
  * regrouping of a sum over `Fin (a * b)` into `a` tiles of `b` consecutive terms, in any additive
    commutative monoid;
  * the variance identity `(Σ (hᵢ - μ)²) / N = (Σ hᵢ²) / N - μ²`, `μ = (Σ hᵢ) / N`, for finite `hᵢ`;
  * small facts about the quotient by a real and about sums of ones.
-/
import Mathlib.Data.EReal.Inv
import Mathlib.Algebra.BigOperators.Group.Finset.Basic
import Mathlib.Algebra.BigOperators.Fin
import Mathlib.Logic.Equiv.Fin.Basic
import Mathlib.Tactic.FieldSimp
import Mathlib.Tactic.Ring
import Idealize.ShloMosaic.PureOps.Ideal

namespace Cert.LibERealStats

open scoped BigOperators

/-! ## Finite extended reals -/

/-- An extended real is *finite* when it is the image of a real number. -/
def IsReal (x : EReal) : Prop := ∃ r : ℝ, x = (r : EReal)

/-- The image of a real number is finite. -/
theorem IsReal.coe (r : ℝ) : IsReal (r : EReal) := ⟨r, rfl⟩

/-- Zero is finite. -/
theorem IsReal.zero : IsReal (0 : EReal) := ⟨0, rfl⟩

/-- One is finite. -/
theorem IsReal.one : IsReal (1 : EReal) := ⟨1, rfl⟩

/-- A natural number, seen as an extended real, is finite. -/
theorem IsReal.natCast (n : ℕ) : IsReal (n : EReal) := ⟨(n : ℝ), rfl⟩

/-- A finite extended real is not `⊤`. -/
theorem IsReal.ne_top {x : EReal} (hx : IsReal x) : x ≠ ⊤ := by
  obtain ⟨a, rfl⟩ := hx; exact EReal.coe_ne_top a

/-- A finite extended real is not `⊥`. -/
theorem IsReal.ne_bot {x : EReal} (hx : IsReal x) : x ≠ ⊥ := by
  obtain ⟨a, rfl⟩ := hx; exact EReal.coe_ne_bot a

/-- An extended real that is neither `⊤` nor `⊥` is finite. -/
theorem isReal_of_ne {x : EReal} (ht : x ≠ ⊤) (hb : x ≠ ⊥) : IsReal x := by
  induction x using EReal.rec with
  | bot => exact absurd rfl hb
  | top => exact absurd rfl ht
  | coe r => exact ⟨r, rfl⟩

/-- Finite means: neither infinity. -/
theorem isReal_iff {x : EReal} : IsReal x ↔ x ≠ ⊤ ∧ x ≠ ⊥ :=
  ⟨fun h => ⟨h.ne_top, h.ne_bot⟩, fun h => isReal_of_ne h.1 h.2⟩

/-- An extended real whose absolute value `max x (-x)` is below `⊤` is finite. -/
theorem isReal_of_abs_lt_top {x : EReal} (h : max x (-x) < ⊤) : IsReal x := by
  induction x using EReal.rec with
  | bot => simp at h
  | top => simp at h
  | coe r => exact ⟨r, rfl⟩

/-- The sum of two finite extended reals is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a finite extended real is finite. -/
theorem IsReal.neg {x : EReal} (hx : IsReal x) : IsReal (-x) := by
  obtain ⟨a, rfl⟩ := hx; exact ⟨-a, (EReal.coe_neg a).symm⟩

/-- The difference of two finite extended reals is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite extended reals is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The embedding of the reals commutes with `max`. -/
theorem coe_max (a b : ℝ) : ((max a b : ℝ) : EReal) = max (a : EReal) (b : EReal) :=
  EReal.coe_strictMono.monotone.map_max

/-- The embedding of the reals commutes with `min`. -/
theorem coe_min (a b : ℝ) : ((min a b : ℝ) : EReal) = min (a : EReal) (b : EReal) :=
  EReal.coe_strictMono.monotone.map_min

/-- The maximum of two finite extended reals is finite. -/
theorem IsReal.max {x y : EReal} (hx : IsReal x) (hy : IsReal y) : IsReal (max x y) := by
  obtain ⟨a, rfl⟩ := hx; obtain ⟨b, rfl⟩ := hy; exact ⟨_, (coe_max a b).symm⟩

/-- The minimum of two finite extended reals is finite. -/
theorem IsReal.min {x y : EReal} (hx : IsReal x) (hy : IsReal y) : IsReal (min x y) := by
  obtain ⟨a, rfl⟩ := hx; obtain ⟨b, rfl⟩ := hy; exact ⟨_, (coe_min a b).symm⟩

/-! ## Finite sums -/

/-- The embedding of the reals commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A finite sum of extended reals, each the image of a real, is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_sum]; exact Finset.sum_congr rfl h

/-- A finite sum of finite extended reals is finite. -/
theorem IsReal.sum {ι : Type*} {s : Finset ι} {f : ι → EReal} (h : ∀ i ∈ s, IsReal (f i)) :
    IsReal (∑ i ∈ s, f i) := by
  classical
  revert h
  refine Finset.induction_on s ?_ ?_
  · intro _; rw [Finset.sum_empty]; exact IsReal.zero
  · intro a s ha ih h
    rw [Finset.sum_insert ha]
    exact (h a (Finset.mem_insert_self a s)).add (ih fun i hi => h i (Finset.mem_insert_of_mem hi))

/-- The sum over a whole finite type of finite extended reals is finite. -/
theorem IsReal.sum_univ {ι : Type*} [Fintype ι] {f : ι → EReal} (h : ∀ i, IsReal (f i)) :
    IsReal (∑ i, f i) :=
  IsReal.sum fun i _ => h i

/-- The sum of finite extended reals over the indices that satisfy a predicate is finite. -/
theorem IsReal.sum_filter {ι : Type*} [Fintype ι] (p : ι → Prop) [DecidablePred p] {f : ι → EReal}
    (h : ∀ i, IsReal (f i)) : IsReal (∑ i ∈ Finset.univ.filter p, f i) :=
  IsReal.sum fun i _ => h i

/-- A finite initial value plus a finite sum of finite extended reals is finite. -/
theorem IsReal.add_sum {ι : Type*} {s : Finset ι} {f : ι → EReal} {x : EReal} (hx : IsReal x)
    (h : ∀ i ∈ s, IsReal (f i)) : IsReal (x + ∑ i ∈ s, f i) :=
  hx.add (IsReal.sum h)

/-- A finite initial value plus the sum of finite extended reals over the indices that satisfy a
    predicate is finite. -/
theorem IsReal.add_sum_filter {ι : Type*} [Fintype ι] (p : ι → Prop) [DecidablePred p]
    {f : ι → EReal} {x : EReal} (hx : IsReal x) (h : ∀ i, IsReal (f i)) :
    IsReal (x + ∑ i ∈ Finset.univ.filter p, f i) :=
  hx.add (IsReal.sum_filter p h)

/-- A sum of ones over a finite set is the number of its elements. -/
theorem sum_one_eq_card {ι : Type*} (s : Finset ι) :
    ∑ _j ∈ s, (1 : EReal) = ((s.card : ℝ) : EReal) := by
  have h : ∑ _j ∈ s, (1 : EReal) = ∑ _j ∈ s, ((1 : ℝ) : EReal) := rfl
  rw [h, ← coe_sum, Finset.sum_const, nsmul_eq_mul, mul_one]

/-- A sum of one real constant over a finite set is the number of its elements times the constant. -/
theorem sum_const_coe {ι : Type*} (s : Finset ι) (c : ℝ) :
    ∑ _j ∈ s, (c : EReal) = (((s.card : ℝ) * c : ℝ) : EReal) := by
  rw [← coe_sum, Finset.sum_const, nsmul_eq_mul]

/-! ## The quotient by a nonzero real -/

/-- The ideal quotient of the images of two reals, the divisor nonzero, is the image of the real
    quotient. -/
theorem div_coe_coe (a : ℝ) {c : ℝ} (hc : c ≠ 0) :
    Idealize.ShloMosaic.Ideal.div (a : EReal) (c : EReal) = ((a / c : ℝ) : EReal) := by
  rw [Idealize.ShloMosaic.Ideal.div_coe hc, ← EReal.coe_mul, mul_one_div]

/-- The ideal quotient of a finite extended real by a nonzero real is finite. -/
theorem IsReal.div {x : EReal} (hx : IsReal x) {c : ℝ} (hc : c ≠ 0) :
    IsReal (Idealize.ShloMosaic.Ideal.div x (c : EReal)) := by
  obtain ⟨a, rfl⟩ := hx; exact ⟨a / c, div_coe_coe a hc⟩

/-- Dividing any extended real by a nonzero real is multiplying it by the quotient of one by that
    real (the reciprocal), at the infinities too. -/
theorem div_eq_mul_one_div {c : ℝ} (hc : c ≠ 0) (x : EReal) :
    Idealize.ShloMosaic.Ideal.div x (c : EReal)
      = x * Idealize.ShloMosaic.Ideal.div 1 (c : EReal) := by
  rw [Idealize.ShloMosaic.Ideal.div_coe hc, Idealize.ShloMosaic.Ideal.div_coe hc, one_mul]

/-- The quotient of one by a nonzero real is the image of the real reciprocal. -/
theorem one_div_coe {c : ℝ} (hc : c ≠ 0) :
    Idealize.ShloMosaic.Ideal.div 1 (c : EReal) = ((1 / c : ℝ) : EReal) := by
  rw [Idealize.ShloMosaic.Ideal.div_coe hc, one_mul]

/-- The maximum of one and a natural number is the image of the real `max 1 k`. -/
theorem max_one_natCast_eq (k : ℕ) :
    max (1 : EReal) ((k : ℝ) : EReal) = ((max 1 (k : ℝ) : ℝ) : EReal) := by
  rw [coe_max, EReal.coe_one]

/-- The maximum of one and a natural number is a real that is at least one, hence not zero. -/
theorem max_one_natCast (k : ℕ) :
    ∃ r : ℝ, r ≠ 0 ∧ max (1 : EReal) ((k : ℝ) : EReal) = (r : EReal) :=
  ⟨max 1 (k : ℝ), (lt_of_lt_of_le one_pos (le_max_left _ _)).ne', max_one_natCast_eq k⟩

/-- The same with the lower bound kept: the maximum of one and a natural number is a real `r ≥ 1`. -/
theorem max_one_natCast_ge (k : ℕ) :
    ∃ r : ℝ, 1 ≤ r ∧ max (1 : EReal) ((k : ℝ) : EReal) = (r : EReal) :=
  ⟨max 1 (k : ℝ), le_max_left _ _, max_one_natCast_eq k⟩

/-- For a natural number `k ≥ 1` the maximum of one and `k` is `k`. -/
theorem max_one_natCast_of_pos {k : ℕ} (hk : 1 ≤ k) :
    max (1 : EReal) ((k : ℝ) : EReal) = ((k : ℝ) : EReal) := by
  rw [max_one_natCast_eq, max_eq_right (by exact_mod_cast hk)]

/-- The same with the operands of `max` in the other order. -/
theorem max_natCast_one (k : ℕ) :
    ∃ r : ℝ, r ≠ 0 ∧ max ((k : ℝ) : EReal) (1 : EReal) = (r : EReal) := by
  rw [max_comm]; exact max_one_natCast k

/-- Zero plus a sum of ones over a finite set is the number of its elements. -/
theorem zero_add_sum_one_eq_card {ι : Type*} (s : Finset ι) :
    (0 : EReal) + ∑ _j ∈ s, (1 : EReal) = ((s.card : ℝ) : EReal) := by
  rw [zero_add, sum_one_eq_card]

/-- Dividing any extended real by a divisor that is a nonzero real is multiplying it by the quotient
    of one by that divisor. -/
theorem div_eq_mul_one_div_of_real {c : EReal} (hc : ∃ r : ℝ, r ≠ 0 ∧ c = (r : EReal)) (x : EReal) :
    Idealize.ShloMosaic.Ideal.div x c = x * Idealize.ShloMosaic.Ideal.div 1 c := by
  obtain ⟨r, hr, rfl⟩ := hc; exact div_eq_mul_one_div hr x

/-- The quotient of a finite extended real by a divisor that is a nonzero real is finite. -/
theorem IsReal.div_of_real {x c : EReal} (hx : IsReal x) (hc : ∃ r : ℝ, r ≠ 0 ∧ c = (r : EReal)) :
    IsReal (Idealize.ShloMosaic.Ideal.div x c) := by
  obtain ⟨r, hr, rfl⟩ := hc; exact hx.div hr

/-- Dividing by the maximum of one and a natural number is multiplying by the quotient of one by
    that maximum: a mean over a group of `k` elements, the empty group counted as one. -/
theorem div_max_one_eq_mul (k : ℕ) (x : EReal) :
    Idealize.ShloMosaic.Ideal.div x (max (1 : EReal) ((k : ℝ) : EReal))
      = x * Idealize.ShloMosaic.Ideal.div 1 (max (1 : EReal) ((k : ℝ) : EReal)) :=
  div_eq_mul_one_div_of_real (max_one_natCast k) x

/-- The quotient of a finite extended real by the maximum of one and a natural number is finite. -/
theorem IsReal.div_max_one {x : EReal} (hx : IsReal x) (k : ℕ) :
    IsReal (Idealize.ShloMosaic.Ideal.div x (Max.max (1 : EReal) ((k : ℝ) : EReal))) :=
  hx.div_of_real (max_one_natCast k)

/-! ## Regrouping a sum into tiles -/

/-- A sum over `a * b` consecutive indices is the sum over `a` tiles of the sums over the `b`
    consecutive indices of each tile: index `t * b + r` is position `r` of tile `t`. -/
theorem sum_tiles {M : Type*} [AddCommMonoid M] (a b : ℕ) (f : ℕ → M) :
    ∑ t : Fin a, ∑ r : Fin b, f (t.val * b + r.val) = ∑ i : Fin (a * b), f i.val := by
  rw [← Fintype.sum_prod_type' (f := fun (t : Fin a) (r : Fin b) => f (t.val * b + r.val))]
  refine Fintype.sum_equiv finProdFinEquiv _ _ fun x => ?_
  have hx : (finProdFinEquiv x).val = x.1.val * b + x.2.val := by
    show x.2.val + b * x.1.val = x.1.val * b + x.2.val
    rw [Nat.mul_comm, Nat.add_comm]
  rw [hx]

/-- The terms of a sum over `a * b` consecutive indices whose index lies in tile `t` (quotient by
    `b` equal to `t`) are the `b` terms at `t * b + r`. -/
theorem sum_filter_tile {M : Type*} [AddCommMonoid M] (a b t : ℕ) (ht : t < a) (f : ℕ → M) :
    ∑ i ∈ Finset.univ.filter (fun i : Fin (a * b) => i.val / b = t), f i.val
      = ∑ r : Fin b, f (t * b + r.val) := by
  have hlt : ∀ r : Fin b, t * b + r.val < a * b := fun r =>
    calc t * b + r.val < t * b + b := Nat.add_lt_add_left r.isLt _
      _ = (t + 1) * b := (Nat.succ_mul t b).symm
      _ ≤ a * b := Nat.mul_le_mul_right b ht
  symm
  refine Finset.sum_bij (fun r _ => (⟨t * b + r.val, hlt r⟩ : Fin (a * b))) ?_ ?_ ?_ ?_
  · intro r _
    have hb : 0 < b := Nat.lt_of_le_of_lt (Nat.zero_le _) r.isLt
    simp only [Finset.mem_filter, Finset.mem_univ, true_and]
    rw [Nat.add_comm, Nat.add_mul_div_right _ _ hb, Nat.div_eq_of_lt r.isLt, Nat.zero_add]
  · intro r _ r' _ h
    have h' : t * b + r.val = t * b + r'.val := congrArg Fin.val h
    exact Fin.ext (Nat.add_left_cancel h')
  · intro i hi
    simp only [Finset.mem_filter, Finset.mem_univ, true_and] at hi
    have hab : 0 < a * b := Nat.lt_of_le_of_lt (Nat.zero_le _) i.isLt
    have hb : 0 < b := Nat.pos_of_ne_zero fun h0 => by
      rw [h0, Nat.mul_zero] at hab; exact Nat.lt_irrefl _ hab
    refine ⟨⟨i.val % b, Nat.mod_lt _ hb⟩, Finset.mem_univ _, Fin.ext ?_⟩
    show t * b + i.val % b = i.val
    rw [← hi]; exact Nat.div_add_mod' i.val b
  · intro r _; rfl

/-! ## The variance identity -/

/-- On the reals: the mean of the squared deviations from the mean is the mean of the squares minus
    the square of the mean, `N` being the number of terms. -/
theorem real_variance {ι : Type*} [Fintype ι] (g : ι → ℝ) (N : ℝ) (hN : N ≠ 0)
    (hcard : (Fintype.card ι : ℝ) = N) :
    (∑ i, (g i - (∑ j, g j) / N) * (g i - (∑ j, g j) / N)) / N
      = (∑ i, g i * g i) / N - ((∑ j, g j) / N) * ((∑ j, g j) / N) := by
  set m : ℝ := (∑ j, g j) / N with hm
  have h1 : ∑ i, (g i - m) * (g i - m)
      = (∑ i, g i * g i) - 2 * m * (∑ i, g i) + N * (m * m) := by
    have h2 : ∀ i, (g i - m) * (g i - m) = g i * g i - 2 * m * g i + m * m := fun i => by ring
    simp only [h2, Finset.sum_add_distrib, Finset.sum_sub_distrib, ← Finset.mul_sum,
      Finset.sum_const, Finset.card_univ, nsmul_eq_mul, hcard]
    ring
  have hS : ∑ j, g j = m * N := by rw [hm]; field_simp
  rw [h1, hS]
  field_simp
  ring

/-- On the extended reals, through the ideal quotient: for finite `h i` and `N` the (nonzero) number
    of terms, with `μ = (Σ h) / N`, the quotient by `N` of the sum of the squared deviations
    `(h i - μ) * (h i - μ)` is the quotient by `N` of the sum of the squares minus `μ * μ`. -/
theorem variance_eq {ι : Type*} [Fintype ι] (h : ι → EReal) (hfin : ∀ i, IsReal (h i)) (N : ℝ)
    (hN : N ≠ 0) (hcard : (Fintype.card ι : ℝ) = N) :
    Idealize.ShloMosaic.Ideal.div
        (∑ i, (h i - Idealize.ShloMosaic.Ideal.div (∑ j, h j) (N : EReal))
          * (h i - Idealize.ShloMosaic.Ideal.div (∑ j, h j) (N : EReal))) (N : EReal)
      = Idealize.ShloMosaic.Ideal.div (∑ i, h i * h i) (N : EReal)
        - Idealize.ShloMosaic.Ideal.div (∑ j, h j) (N : EReal)
          * Idealize.ShloMosaic.Ideal.div (∑ j, h j) (N : EReal) := by
  obtain ⟨g, rfl⟩ : ∃ g : ι → ℝ, h = fun i => (g i : EReal) :=
    ⟨fun i => (hfin i).choose, funext fun i => (hfin i).choose_spec⟩
  dsimp only
  have hμ : Idealize.ShloMosaic.Ideal.div (∑ j, ((g j : ℝ) : EReal)) (N : EReal)
      = (((∑ j, g j) / N : ℝ) : EReal) := by
    rw [← coe_sum, div_coe_coe _ hN]
  rw [hμ]
  have h1 : ∑ i, (((g i : ℝ) : EReal) - (((∑ j, g j) / N : ℝ) : EReal))
        * (((g i : ℝ) : EReal) - (((∑ j, g j) / N : ℝ) : EReal))
      = ((∑ i, (g i - (∑ j, g j) / N) * (g i - (∑ j, g j) / N) : ℝ) : EReal) := by
    rw [coe_sum]; exact Finset.sum_congr rfl fun i _ => by rw [EReal.coe_mul, EReal.coe_sub]
  have h2 : ∑ i, ((g i : ℝ) : EReal) * ((g i : ℝ) : EReal) = ((∑ i, g i * g i : ℝ) : EReal) := by
    rw [coe_sum]; exact Finset.sum_congr rfl fun i _ => by rw [EReal.coe_mul]
  rw [h1, h2, div_coe_coe _ hN, div_coe_coe _ hN, ← EReal.coe_mul, ← EReal.coe_sub,
    real_variance g N hN hcard]

/-- The mean `(Σ h) / N` of finite extended reals, `N` a nonzero real, is finite. -/
theorem isReal_mean {ι : Type*} [Fintype ι] (h : ι → EReal) (hfin : ∀ i, IsReal (h i)) (N : ℝ)
    (hN : N ≠ 0) : IsReal (Idealize.ShloMosaic.Ideal.div (∑ j, h j) (N : EReal)) :=
  (IsReal.sum_univ hfin).div hN

/-- The mean of the squares minus the square of the mean, of finite extended reals, is finite. -/
theorem isReal_variance {ι : Type*} [Fintype ι] (h : ι → EReal) (hfin : ∀ i, IsReal (h i)) (N : ℝ)
    (hN : N ≠ 0) :
    IsReal (Idealize.ShloMosaic.Ideal.div (∑ i, h i * h i) (N : EReal)
        - Idealize.ShloMosaic.Ideal.div (∑ j, h j) (N : EReal)
          * Idealize.ShloMosaic.Ideal.div (∑ j, h j) (N : EReal)) :=
  ((IsReal.sum_univ fun i => (hfin i).mul (hfin i)).div hN).sub
    ((isReal_mean h hfin N hN).mul (isReal_mean h hfin N hN))

/-- The mean of the squared deviations from the mean, of finite extended reals, is finite. -/
theorem isReal_variance_centered {ι : Type*} [Fintype ι] (h : ι → EReal) (hfin : ∀ i, IsReal (h i))
    (N : ℝ) (hN : N ≠ 0) :
    IsReal (Idealize.ShloMosaic.Ideal.div
        (∑ i, (h i - Idealize.ShloMosaic.Ideal.div (∑ j, h j) (N : EReal))
          * (h i - Idealize.ShloMosaic.Ideal.div (∑ j, h j) (N : EReal))) (N : EReal)) :=
  (IsReal.sum_univ fun i =>
    ((hfin i).sub (isReal_mean h hfin N hN)).mul ((hfin i).sub (isReal_mean h hfin N hN))).div hN

/-- Regrouping into tiles with the total number of terms named: for `a * b = n`. -/
theorem sum_tiles_of_eq {M : Type*} [AddCommMonoid M] (a b n : ℕ) (hn : a * b = n) (f : ℕ → M) :
    ∑ t : Fin a, ∑ r : Fin b, f (t.val * b + r.val) = ∑ i : Fin n, f i.val := by
  subst hn; exact sum_tiles a b f

/-- The terms of one tile with the total number of terms named: for `a * b = n`. -/
theorem sum_filter_tile_of_eq {M : Type*} [AddCommMonoid M] (a b n t : ℕ) (hn : a * b = n)
    (ht : t < a) (f : ℕ → M) :
    ∑ i ∈ Finset.univ.filter (fun i : Fin n => i.val / b = t), f i.val
      = ∑ r : Fin b, f (t * b + r.val) := by
  subst hn; exact sum_filter_tile a b t ht f

/-! ## Statistics from per-tile partial sums -/

/-- The mean computed from `a` per-tile sums of `b` consecutive terms is the mean computed from the one
    sum over all `a * b` terms (each outer sum started from zero), whatever the divisor. -/
theorem tiled_mean_eq (a b : ℕ) (f : ℕ → EReal) (c : EReal) :
    Idealize.ShloMosaic.Ideal.div (0 + ∑ t : Fin a, ∑ r : Fin b, f (t.val * b + r.val)) c
      = Idealize.ShloMosaic.Ideal.div (0 + ∑ i : Fin (a * b), f i.val) c := by
  rw [sum_tiles]

/-- The variance computed from per-tile partial sums, as the mean of the squares minus the square of
    the mean, is the variance computed over all `a * b` terms at once as the mean of the squared
    deviations from the mean — for finite terms, `N = a * b` nonzero, each outer sum started from
    zero. -/
theorem tiled_variance_eq (a b : ℕ) (f : ℕ → EReal) (hfin : ∀ i : Fin (a * b), IsReal (f i.val))
    (N : ℝ) (hN : N ≠ 0) (hcard : ((a * b : ℕ) : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin (a * b),
            (f i.val - Idealize.ShloMosaic.Ideal.div (0 + ∑ j : Fin (a * b), f j.val) (N : EReal))
              * (f i.val - Idealize.ShloMosaic.Ideal.div (0 + ∑ j : Fin (a * b), f j.val) (N : EReal)))
          (N : EReal) := by
  have hsq := sum_tiles a b fun n => f n * f n
  rw [sum_tiles a b f, hsq]
  simp only [zero_add]
  exact (variance_eq (fun i : Fin (a * b) => f i.val) hfin N hN
    (by rw [Fintype.card_fin]; exact hcard)).symm

/-- The tiled mean with the total number of terms named: for `a * b = n`. -/
theorem tiled_mean_eq_of_eq (a b n : ℕ) (hn : a * b = n) (f : ℕ → EReal) (c : EReal) :
    Idealize.ShloMosaic.Ideal.div (0 + ∑ t : Fin a, ∑ r : Fin b, f (t.val * b + r.val)) c
      = Idealize.ShloMosaic.Ideal.div (0 + ∑ i : Fin n, f i.val) c := by
  subst hn; exact tiled_mean_eq a b f c

/-- The tiled variance with the total number of terms named: for `a * b = n` and `N = n` nonzero. -/
theorem tiled_variance_eq_of_eq (a b n : ℕ) (hn : a * b = n) (f : ℕ → EReal)
    (hfin : ∀ i : Fin n, IsReal (f i.val)) (N : ℝ) (hN : N ≠ 0) (hcard : (n : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin n,
            (f i.val - Idealize.ShloMosaic.Ideal.div (0 + ∑ j : Fin n, f j.val) (N : EReal))
              * (f i.val - Idealize.ShloMosaic.Ideal.div (0 + ∑ j : Fin n, f j.val) (N : EReal)))
          (N : EReal) := by
  subst hn; exact tiled_variance_eq a b f hfin N hN hcard

end Cert.LibERealStats
-- ==== Proof.Spec.lean ====
/-
  The mathematics of the retrieval kernel, on the extended reals, with no program in sight.

  For a query row a and a dictionary row b (both of length 512) the weight is the reciprocal of the squared
  distance plus a small constant, the squared distance written as |a|² − 2·⟨a, b⟩ + |b|².  The result at (r, c) is the
  sum over all 16384 dictionary rows j of weight(x_r, keys_j) · values(j, c).

  Two facts are proved here.  The weight does not depend on the order in which the three summands of the squared
  distance are added, nor on the order of the factors inside the inner product (addition and multiplication of
  extended reals are commutative and associative, and a difference is a sum with the negative).  And a sum over the
  16384 dictionary rows is the sum over 16 tiles of the sums over the 1024 rows of each tile.
-/
import Idealize.ShloMosaic.PureOps.Ideal
import Idealize.ShloMosaic.Lib.ValueIdx
import proofs.«158417_j55602646614102_1_alg».proof.Proof.LibERealStats

noncomputable section

namespace Cert.Varkeys

open Idealize.ShloMosaic Idealize.ShloMosaic.ValueIdx

/-- The shapes of the three arguments and of the result. -/
abbrev SX : Shape := ⟨2, ![4096, 512]⟩
abbrev SK : Shape := ⟨2, ![16384, 512]⟩
abbrev SV : Shape := ⟨2, ![16384, 100]⟩
abbrev SO : Shape := ⟨2, ![4096, 100]⟩

/-- The three float literals both programs use, as the extended reals their words denote: 1, 2 and the small constant
    added to the squared distance.  They are the same words on both sides and are never evaluated. -/
abbrev one : EReal := Ideal.ofBits .f32 0x3F800000#32
abbrev two : EReal := Ideal.ofBits .f32 0x40000000#32
abbrev eps : EReal := Ideal.ofBits .f32 0x38D1B717#32

/-- The squared norm of a row: the sum of the squares of its 512 entries. -/
def sqn (a : Fin 512 → EReal) : EReal := ∑ k : Fin 512, a k * a k

/-- The inner product of two rows. -/
def dotp (a b : Fin 512 → EReal) : EReal := ∑ k : Fin 512, a k * b k

/-- The weight of a dictionary row b for a query row a: 1 / (|a|² − 2⟨a, b⟩ + |b|² + ε), the summands added in this
    order. -/
def wgt (a b : Fin 512 → EReal) : EReal := Ideal.div one (((sqn a - two * dotp a b) + sqn b) + eps)

/-- The inner product is symmetric. -/
theorem dotp_comm (a b : Fin 512 → EReal) : dotp a b = dotp b a :=
  Finset.sum_congr rfl fun k _ => mul_comm (a k) (b k)

/-- The same weight with the squared distance assembled from the dictionary row's side: |b|² − 2⟨b, a⟩ + |a|². -/
theorem wgt_swap (a b : Fin 512 → EReal) :
    Ideal.div one (((sqn b - two * dotp b a) + sqn a) + eps) = wgt a b := by
  unfold wgt
  rw [dotp_comm b a, sub_eq_add_neg, sub_eq_add_neg]
  refine congrArg (Ideal.div one) (congrArg (· + eps) ?_)
  ac_rfl

/-- Term j of the result's sum at row r and column c, as a function of a natural number j (zero past the dictionary's
    end, which no sum below reaches). -/
def term (X : SX.Idx → EReal) (K : SK.Idx → EReal) (V : SV.Idx → EReal) (r : Fin 4096) (c : Fin 100) (j : ℕ) : EReal :=
  if h : j < 16384 then wgt (fun k => X (ix2 r k)) (fun k => K (ix2 (⟨j, h⟩ : Fin 16384) k)) * V (ix2 (⟨j, h⟩ : Fin 16384) c) else 0

/-- At a dictionary row the term is the weight times the value. -/
theorem term_fin (X : SX.Idx → EReal) (K : SK.Idx → EReal) (V : SV.Idx → EReal) (r : Fin 4096) (c : Fin 100) (j : Fin 16384) :
    term X K V r c j.val = wgt (fun k => X (ix2 r k)) (fun k => K (ix2 j k)) * V (ix2 j c) := by
  unfold term
  rw [dif_pos j.isLt]

/-- THE RESULT: at (r, c), the sum over the dictionary rows of weight times value. -/
def G (X : SX.Idx → EReal) (K : SK.Idx → EReal) (V : SV.Idx → EReal) : SO.Idx → EReal := fun i =>
  ∑ j : Fin 16384, term X K V ⟨(i 0).val, (i 0).isLt⟩ ⟨(i 1).val, (i 1).isLt⟩ j.val

theorem G_ix2 (X : SX.Idx → EReal) (K : SK.Idx → EReal) (V : SV.Idx → EReal) (r : Fin 4096) (c : Fin 100) :
    G X K V (ix2 r c) = ∑ j : Fin 16384, term X K V r c j.val := rfl

/-- The same result tile by tile: 16 tiles of 1024 dictionary rows, row 1024·s + q the q-th of tile s. -/
theorem G_tiles (X : SX.Idx → EReal) (K : SK.Idx → EReal) (V : SV.Idx → EReal) (r : Fin 4096) (c : Fin 100) :
    G X K V (ix2 r c) = ∑ s : Fin 16, ∑ q : Fin 1024, term X K V r c (s.val * 1024 + q.val) := by
  rw [G_ix2]
  exact (Cert.LibERealStats.sum_tiles_of_eq 16 1024 16384 (by norm_num) (term X K V r c)).symm

end Cert.Varkeys

end
-- ==== Proof.RefIsSpec.lean ====
/-
  The reference program computes G.

  The reference builds, for every dictionary row j and query row r, the squared distance as
  |keys_j|² − 2·⟨keys_j, x_r⟩ + |x_r|², adds the small constant, takes the reciprocal, transposes the table of
  reciprocals, and multiplies it with the values: its result at (r, c) is the sum over the dictionary rows j of
  reciprocal(j, r) · values(j, c).

  Read one operation at a time at an index built from its coordinates, every stage is a closed expression: the two
  row sums of squares are the squared norms (their initial value is the zero word, and 0 + s = s), the first
  contraction is the inner product ⟨keys_j, x_r⟩ (the transposed query array read at (k, r) is the query array at
  (r, k)), the broadcasts of the three constants are the constants, and the broadcasts of the two norm columns read
  the norms at j and at r.  The table entry at (j, r) is therefore the weight with the squared distance assembled from the
  dictionary row's side, which is the weight of the specification because the sum of the three summands does not
  depend on their order and the inner product is symmetric.  The last contraction is then, term by term, the sum that
  defines G.
-/
import proofs.«158417_j55602646614102_1_alg».proof.Proof.Spec
import proofs.«158417_j55602646614102_1_alg».proof.Proof.Gen.ReferenceIdeal.Read
import Idealize.ShloMosaic.PureOps.Ideal.Laws
import Idealize.ShloMosaic.Lib.ValueIdx

noncomputable section

namespace Cert.Varkeys.Ref

open Idealize.ShloMosaic Idealize.ShloMosaic.ValueIdx Cert.ReferenceIdeal Cert.ReferenceIdeal.Read

/-- The row sums of squares of the dictionary: at row j, the squared norm of keys_j (the sum starts from the zero
    word, and 0 + s = s). -/
theorem v1_at (K : (⟨S16384x512, .f32⟩ : BufTy).Contents (Elt Ideal)) (j : Fin 16384) :
    val_main_v1 (F := Ideal) K (ix1 j) = sqn (fun k => K (ix2 j k)) := by
  rw [val_main_v1_apply, val_main_cst_apply, Ideal.ofBits_def, Ideal.ofBits_zero_f32, zero_add]
  unfold sqn
  refine Finset.sum_congr rfl fun k _ => ?_
  rw [val_main_v0_apply, Ideal.mulf_def]
  have e : idx_main_v1 (ix1 j) k = ix2 j k :=
    funext fun a => Fin.ext (by match a with | ⟨0, _⟩ => rfl | ⟨1, _⟩ => rfl)
  rw [e]

/-- The row sums of squares of the queries: at row r, the squared norm of x_r. -/
theorem v4_at (X : (⟨S4096x512, .f32⟩ : BufTy).Contents (Elt Ideal)) (r : Fin 4096) :
    val_main_v4 (F := Ideal) X (ix1 r) = sqn (fun k => X (ix2 r k)) := by
  rw [val_main_v4_apply, val_main_cst_0_apply, Ideal.ofBits_def, Ideal.ofBits_zero_f32, zero_add]
  unfold sqn
  refine Finset.sum_congr rfl fun k _ => ?_
  rw [val_main_v3_apply, Ideal.mulf_def]
  have e : idx_main_v4 (ix1 r) k = ix2 r k :=
    funext fun a => Fin.ext (by match a with | ⟨0, _⟩ => rfl | ⟨1, _⟩ => rfl)
  rw [e]

/-- The first contraction: at (j, r), the inner product of keys_j and x_r (the transposed query array at (k, r) is
    the query array at (r, k)). -/
theorem v7_at (X : (⟨S4096x512, .f32⟩ : BufTy).Contents (Elt Ideal))
    (K : (⟨S16384x512, .f32⟩ : BufTy).Contents (Elt Ideal)) (j : Fin 16384) (r : Fin 4096) :
    val_main_v7 (F := Ideal) X K (ix2 j r) = dotp (fun k => K (ix2 j k)) (fun k => X (ix2 r k)) := by
  rw [val_main_v7_apply]
  unfold dotp
  refine Finset.sum_congr rfl fun k _ => ?_
  rw [val_main_v6_apply]
  have el : lidx_main_v7 (ix2 j r) k = ix2 j k :=
    funext fun a => Fin.ext (by match a with | ⟨0, _⟩ => rfl | ⟨1, _⟩ => rfl)
  have er : idx_main_v6 (ridx_main_v7 (ix2 j r) k) = ix2 r k :=
    funext fun a => Fin.ext (by match a with | ⟨0, _⟩ => rfl | ⟨1, _⟩ => rfl)
  rw [el, er]

/-- The column of dictionary norms spread over the table: at (j, r), the squared norm of keys_j. -/
theorem v10_at (K : (⟨S16384x512, .f32⟩ : BufTy).Contents (Elt Ideal)) (j : Fin 16384) (r : Fin 4096) :
    val_main_v10 (F := Ideal) K (ix2 j r) = sqn (fun k => K (ix2 j k)) := by
  rw [val_main_v10_apply, val_main_v2_apply]
  have e : idx_main_v2 (idx_main_v10 (ix2 j r)) = ix1 j :=
    funext fun a => Fin.ext (by match a with | ⟨0, _⟩ => rfl)
  rw [e, v1_at]

/-- The row of query norms spread over the table: at (j, r), the squared norm of x_r. -/
theorem v12_at (X : (⟨S4096x512, .f32⟩ : BufTy).Contents (Elt Ideal)) (j : Fin 16384) (r : Fin 4096) :
    val_main_v12 (F := Ideal) X (ix2 j r) = sqn (fun k => X (ix2 r k)) := by
  rw [val_main_v12_apply, val_main_v5_apply]
  have e : idx_main_v5 (idx_main_v12 (ix2 j r)) = ix1 r :=
    funext fun a => Fin.ext (by match a with | ⟨0, _⟩ => rfl)
  rw [e, v4_at]

/-- The table of reciprocals at (j, r): the weight of dictionary row j for query row r. -/
theorem v17_at (X : (⟨S4096x512, .f32⟩ : BufTy).Contents (Elt Ideal))
    (K : (⟨S16384x512, .f32⟩ : BufTy).Contents (Elt Ideal)) (j : Fin 16384) (r : Fin 4096) :
    val_main_v17 (F := Ideal) X K (ix2 j r) = wgt (fun k => X (ix2 r k)) (fun k => K (ix2 j k)) := by
  rw [val_main_v17_apply, val_main_v16_apply, val_main_cst_3_apply, val_main_v15_apply, val_main_v14_apply,
    val_main_cst_2_apply, val_main_v13_apply, val_main_v11_apply, val_main_v9_apply, val_main_v8_apply,
    val_main_cst_1_apply, v12_at, v10_at, v7_at]
  rw [Ideal.hostDivf_def, Ideal.addf_def, Ideal.addf_def, Ideal.subf_def, Ideal.mulf_def, Ideal.ofBits_def,
    Ideal.ofBits_def, Ideal.ofBits_def]
  exact wgt_swap _ _

/-- The transposed table at (r, j) is the table at (j, r). -/
theorem v18_at (X : (⟨S4096x512, .f32⟩ : BufTy).Contents (Elt Ideal))
    (K : (⟨S16384x512, .f32⟩ : BufTy).Contents (Elt Ideal)) (r : Fin 4096) (j : Fin 16384) :
    val_main_v18 (F := Ideal) X K (ix2 r j) = wgt (fun k => X (ix2 r k)) (fun k => K (ix2 j k)) := by
  rw [val_main_v18_apply]
  have e : idx_main_v18 (ix2 r j) = ix2 j r :=
    funext fun a => Fin.ext (by match a with | ⟨0, _⟩ => rfl | ⟨1, _⟩ => rfl)
  rw [e, v17_at]

/-- THE REFERENCE IS G: at every (r, c) the last contraction is the sum over the dictionary rows of weight times
    value. -/
theorem ref_eq_G (X : (⟨S4096x512, .f32⟩ : BufTy).Contents (Elt Ideal))
    (K : (⟨S16384x512, .f32⟩ : BufTy).Contents (Elt Ideal))
    (V : (⟨S16384x100, .f32⟩ : BufTy).Contents (Elt Ideal)) :
    val_main_v19 (F := Ideal) X K V = Cert.Varkeys.G X K V := by
  funext i
  obtain ⟨r, c, rfl⟩ : ∃ (r : Fin 4096) (c : Fin 100), i = ix2 r c := ⟨i 0, i 1, eq_ix2 i⟩
  rw [Cert.Varkeys.G_ix2, val_main_v19_apply]
  refine Finset.sum_congr rfl fun j _ => ?_
  rw [Cert.Varkeys.term_fin]
  have el : lidx_main_v19 (ix2 r c) j = ix2 r j :=
    funext fun a => Fin.ext (by match a with | ⟨0, _⟩ => rfl | ⟨1, _⟩ => rfl)
  have er : ridx_main_v19 (ix2 r c) j = ix2 j c :=
    funext fun a => Fin.ext (by match a with | ⟨0, _⟩ => rfl | ⟨1, _⟩ => rfl)
  rw [el, er, v18_at]

end Cert.Varkeys.Ref

end
-- ==== Proof.KernelPieces.lean ====
/-
  What one grid point leaves behind, as values.

  The kernel's body, at a grid point (i, j), holds a [1024, 100] accumulator.  At the first dictionary tile (j = 0)
  it first stores the zero block into the accumulator; at every tile it loads the accumulator, adds the tile's
  contribution and stores the sum back; at the last tile (j = 15) it then copies the accumulator into the output block.
  Each of these stores writes the whole block, so what a buffer holds after the body is the payload of the last store
  into it, and a load that follows a store reads that store's payload.

  Three kinds of grid point occur: the first tile (zero, then add), a middle tile (add), the last tile (add, then
  copy out).  For each the accumulator after the body is the one arithmetic term of the body applied to the three
  input tiles and to the accumulator before (the zero block at a first tile); at a last tile the output block holds the
  same term.
-/
import proofs.«158417_j55602646614102_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The offset of every load and store of the body: the block's origin. -/
theorem hz : (![0, 0] : Fin 2 → Nat) = fun _ => 0 := funext fun a => by fin_cases a <;> rfl

/-- A MIDDLE TILE: the accumulator, holding `xs0` before, ends at the body's term of the three input tiles and `xs0`. -/
theorem sout_B (c : Dev nD) (i : grid0.Coords) (a2 : Memref sig .tc .vmem S1024x512 .f32) (h2 : a2.IsWhole) (a3 : Memref sig .tc .vmem S1024x512 .f32) (h3 : a3.IsWhole) (a4 : Memref sig .tc .vmem S1024x100 .f32) (h4 : a4.IsWhole) (a5 : Memref sig .tc .vmem S1024x100 .f32) (h5 : a5.IsWhole) (a6 : Memref sig .tc .vmem S1024x100 .f32) (h6 : a6.IsWhole) (hc0 : ¬cond0_0 i) (hc1 : ¬cond0_1 i)
    (x0 : Vec F S1024x512 .f32) (x1 : Vec F S1024x512 .f32) (x2 : Vec F S1024x100 .f32) (xs0 : Vec F S1024x100 .f32) :
    sout0_B_0 c i a2 h2 a3 h3 a4 h4 a5 h5 a6 h6 hc0 hc1 x0 x1 x2 xs0 = k0_pay2 x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz]
  simp only [View.readAt_eq_ld, h2.read_unread, h3.read_unread, h4.read_unread, h6.read_unread,
    View.ld_unit_zero (S := S1024x512) hz, View.ld_unit_zero (S := S1024x100) hz]

/-- THE LAST TILE, the accumulator: as at a middle tile. -/
theorem sout_C (c : Dev nD) (i : grid0.Coords) (a2 : Memref sig .tc .vmem S1024x512 .f32) (h2 : a2.IsWhole) (a3 : Memref sig .tc .vmem S1024x512 .f32) (h3 : a3.IsWhole) (a4 : Memref sig .tc .vmem S1024x100 .f32) (h4 : a4.IsWhole) (a5 : Memref sig .tc .vmem S1024x100 .f32) (h5 : a5.IsWhole) (a6 : Memref sig .tc .vmem S1024x100 .f32) (h6 : a6.IsWhole) (hc0 : ¬cond0_0 i) (hc1 : cond0_1 i)
    (x0 : Vec F S1024x512 .f32) (x1 : Vec F S1024x512 .f32) (x2 : Vec F S1024x100 .f32) (xs0 : Vec F S1024x100 .f32) :
    sout0_C_0 c i a2 h2 a3 h3 a4 h4 a5 h5 a6 h6 hc0 hc1 x0 x1 x2 xs0 = k0_pay2 x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero (S := S1024x100) hz]
  simp only [View.readAt_eq_ld, h2.read_unread, h3.read_unread, h4.read_unread, h6.read_unread,
    View.ld_unit_zero (S := S1024x512) hz, View.ld_unit_zero (S := S1024x100) hz]

/-- THE LAST TILE, the output block: the copy of the accumulator just stored, so the same term. -/
theorem out_C (c : Dev nD) (i : grid0.Coords) (a2 : Memref sig .tc .vmem S1024x512 .f32) (h2 : a2.IsWhole) (a3 : Memref sig .tc .vmem S1024x512 .f32) (h3 : a3.IsWhole) (a4 : Memref sig .tc .vmem S1024x100 .f32) (h4 : a4.IsWhole) (a5 : Memref sig .tc .vmem S1024x100 .f32) (h5 : a5.IsWhole) (a6 : Memref sig .tc .vmem S1024x100 .f32) (h6 : a6.IsWhole) (hc0 : ¬cond0_0 i) (hc1 : cond0_1 i)
    (x0 : Vec F S1024x512 .f32) (x1 : Vec F S1024x512 .f32) (x2 : Vec F S1024x100 .f32) (xs0 : Vec F S1024x100 .f32) :
    out0_C_3 c i a2 h2 a3 h3 a4 h4 a5 h5 a6 h6 hc0 hc1 x0 x1 x2 xs0 = k0_pay2 x0 x1 x2 xs0 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero (S := S1024x100) hz, View.readCov_unit_zero (S := S1024x100) _ hz]
  simp only [View.readAt_eq_ld, h2.read_unread, h3.read_unread, h4.read_unread, h6.read_unread,
    View.ld_unit_zero (S := S1024x512) hz, View.ld_unit_zero (S := S1024x100) hz]

/-- THE FIRST TILE: the accumulator is zeroed, read back, and ends at the body's term of the three input tiles and
    the zero block, whatever it held before. -/
theorem sout_A (c : Dev nD) (i : grid0.Coords) (a2 : Memref sig .tc .vmem S1024x512 .f32) (h2 : a2.IsWhole) (a3 : Memref sig .tc .vmem S1024x512 .f32) (h3 : a3.IsWhole) (a4 : Memref sig .tc .vmem S1024x100 .f32) (h4 : a4.IsWhole) (a5 : Memref sig .tc .vmem S1024x100 .f32) (h5 : a5.IsWhole) (a6 : Memref sig .tc .vmem S1024x100 .f32) (h6 : a6.IsWhole) (hc0 : cond0_0 i) (hc1 : ¬cond0_1 i)
    (x0 : Vec F S1024x512 .f32) (x1 : Vec F S1024x512 .f32) (x2 : Vec F S1024x100 .f32) :
    sout0_A_0 c i a2 h2 a3 h3 a4 h4 a5 h5 a6 h6 hc0 hc1 x0 x1 x2 = k0_pay2 x0 x1 x2 k0_pay1 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x100) hz, View.readCov_unit_zero (S := S1024x100) _ hz]
  simp only [View.readAt_eq_ld, h2.read_unread, h3.read_unread, h4.read_unread,
    View.ld_unit_zero (S := S1024x512) hz, View.ld_unit_zero (S := S1024x100) hz]

end Cert.KernelIdeal.Pieces

end
-- ==== Proof.KernelBlocks.lean ====
/-
  Where the blocks of the four arrays sit.

  The grid has 4 × 16 points, numbered row-major: point t is batch tile t / 16 and dictionary tile t % 16.  At point
  t the kernel sees rows 1024·(t / 16) … of x, rows 1024·(t % 16) … of keys and of values, and its output block is
  rows 1024·(t / 16) … of the result.  This module reads each input block at an entry as the entry of the whole
  array it is, says which entries of the result an output block holds, and that the sixteenth point of every run
  writes its block back.
-/
import proofs.«158417_j55602646614102_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The block indices of the four windows at point t, decided over the 64 points: x and the result move with t / 16,
    keys and values with t % 16; no window moves along its second axis. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = t.val / 16 ∧ win0_3.index t (1 : Fin 2) = 0 :=
  (by decide +kernel : ∀ t : Fin grid0.N, _)

/-- Entry (p, k) of the x block at point t is entry (1024·(t / 16) + p, k) of x (the batch tile written modulo 4,
    which changes nothing for the 64 points of the grid). -/
theorem iblk0_apply (c : Dev nD) (t : Fin cfg0.N) (p : Fin 1024) (k : Fin 512) (hr : 1024 * (t.val / 16 % 4) + p.val < 4096) :
    (iblk m c 0 t : Vec F S1024x512 .f32) (ix2 p k)
      = (m ((c : Thread nD τ).loc main_arg0) : S4096x512.Idx → Elt F .f32) (ix2 (⟨1024 * (t.val / 16 % 4) + p.val, hr⟩ : Fin 4096) k) := by
  obtain ⟨e0, e1, -⟩ := idx_facts t
  have hN : t.val < 64 := lt_of_lt_of_eq t.isLt N_0
  unfold iblk
  rw [View.read_apply]
  show V m c main_arg0 _ = m (c.tc.loc main_arg0) _
  unfold V
  refine congrArg _ ?_
  funext a; apply Fin.ext
  match a with
  | ⟨0, _⟩ => show win0_0.index t 0 * 1024 + 1 * p.val = 1024 * (t.val / 16 % 4) + p.val; rw [e0]; omega
  | ⟨1, _⟩ => show win0_0.index t 1 * 512 + 1 * k.val = k.val; rw [e1]; omega

/-- Entry (q, k) of the keys block at point t is entry (1024·(t % 16) + q, k) of keys. -/
theorem iblk1_apply (c : Dev nD) (t : Fin cfg0.N) (q : Fin 1024) (k : Fin 512) (hr : t.val % 16 * 1024 + q.val < 16384) :
    (iblk m c 1 t : Vec F S1024x512 .f32) (ix2 q k)
      = (m ((c : Thread nD τ).loc main_arg1) : S16384x512.Idx → Elt F .f32) (ix2 (⟨t.val % 16 * 1024 + q.val, hr⟩ : Fin 16384) k) := by
  obtain ⟨-, -, e0, e1, -⟩ := idx_facts t
  unfold iblk
  rw [View.read_apply]
  show V m c main_arg1 _ = m (c.tc.loc main_arg1) _
  unfold V
  refine congrArg _ ?_
  funext a; apply Fin.ext
  match a with
  | ⟨0, _⟩ => show win0_1.index t 0 * 1024 + 1 * q.val = t.val % 16 * 1024 + q.val; rw [e0]; omega
  | ⟨1, _⟩ => show win0_1.index t 1 * 512 + 1 * k.val = k.val; rw [e1]; omega

/-- Entry (q, j) of the values block at point t is entry (1024·(t % 16) + q, j) of values. -/
theorem iblk2_apply (c : Dev nD) (t : Fin cfg0.N) (q : Fin 1024) (j : Fin 100) (hr : t.val % 16 * 1024 + q.val < 16384) :
    (iblk m c 2 t : Vec F S1024x100 .f32) (ix2 q j)
      = (m ((c : Thread nD τ).loc main_arg2) : S16384x100.Idx → Elt F .f32) (ix2 (⟨t.val % 16 * 1024 + q.val, hr⟩ : Fin 16384) j) := by
  obtain ⟨-, -, -, -, e0, e1, -⟩ := idx_facts t
  unfold iblk
  rw [View.read_apply]
  show V m c main_arg2 _ = m (c.tc.loc main_arg2) _
  unfold V
  refine congrArg _ ?_
  funext a; apply Fin.ext
  match a with
  | ⟨0, _⟩ => show win0_2.index t 0 * 1024 + 1 * q.val = t.val % 16 * 1024 + q.val; rw [e0]; omega
  | ⟨1, _⟩ => show win0_2.index t 1 * 100 + 1 * j.val = j.val; rw [e1]; omega

/-- An entry of the result lies in point t's output block iff each coordinate lies in the block's range on its axis. -/
theorem mem_blk3 (t : Fin cfg0.N) (i : S4096x100.Idx) :
    i ∈ ((cfg0.win 3).blk t).view.set ↔ ∀ a : Fin 2, win0_3.index t a * S1024x100.size a ≤ (i a).val ∧ (i a).val < win0_3.index t a * S1024x100.size a + S1024x100.size a := by
  show i ∈ ((View.whole main_v0).slice (win0_3.rect t)).set ↔ _
  rw [View.set_slice_whole, Rect.mem_set_unit]
  exact Iff.rfl

/-- Every entry of the result lies in the output block of a point that writes its block back: entry (r, j) in the
    block of the last point of batch tile r / 1024. -/
theorem cover3 (i : S4096x100.Idx) :
    ∃ t : Fin cfg0.N, (cfg0.win 3).flush t = true ∧ i ∈ ((cfg0.win 3).blk t).view.set := by
  have hi0 : (i 0).val < 4096 := (i 0).isLt
  have hi1 : (i 1).val < 100 := (i 1).isLt
  have hN : cfg0.N = 64 := N_0
  refine ⟨⟨16 * ((i 0).val / 1024) + 15, by omega⟩, (flush0_3 _).mpr (by show (16 * ((i 0).val / 1024) + 15) % 16 = 15; omega), ?_⟩
  rw [mem_blk3]
  obtain ⟨-, -, -, -, -, -, e0, e1⟩ := idx_facts (⟨16 * ((i 0).val / 1024) + 15, by omega⟩ : Fin cfg0.N)
  intro a
  match a with
  | ⟨0, _⟩ =>
    show win0_3.index _ (0 : Fin 2) * 1024 ≤ (i 0).val ∧ (i 0).val < win0_3.index _ (0 : Fin 2) * 1024 + 1024
    rw [e0]; show (16 * ((i 0).val / 1024) + 15) / 16 * 1024 ≤ (i 0).val ∧ (i 0).val < (16 * ((i 0).val / 1024) + 15) / 16 * 1024 + 1024
    omega
  | ⟨1, _⟩ =>
    show win0_3.index _ (1 : Fin 2) * 100 ≤ (i 1).val ∧ (i 1).val < win0_3.index _ (1 : Fin 2) * 100 + 100
    rw [e1]; omega

/-- The entry of the result that entry (p, j) of point t's output block is: (1024·(t / 16) + p, j). -/
theorem emb3 (t : Fin cfg0.N) (p : Fin 1024) (j : Fin 100) (hr : 1024 * (t.val / 16 % 4) + p.val < 4096) :
    ((cfg0.win 3).blk t).view.emb (ix2 p j) = (ix2 (⟨1024 * (t.val / 16 % 4) + p.val, hr⟩ : Fin 4096) j : S4096x100.Idx) := by
  obtain ⟨-, -, -, -, -, -, e0, e1⟩ := idx_facts t
  have hN : t.val < 64 := lt_of_lt_of_eq t.isLt N_0
  funext a; apply Fin.ext
  match a with
  | ⟨0, _⟩ => show win0_3.index t 0 * 1024 + 1 * p.val = 1024 * (t.val / 16 % 4) + p.val; rw [e0]; omega
  | ⟨1, _⟩ => show win0_3.index t 1 * 100 + 1 * j.val = j.val; rw [e1]; omega

end Cert.KernelIdeal.Blocks

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.KernelTile.lean ====
/-
  What one grid point's arithmetic computes, read at an entry.

  A grid point holds a tile x of 1024 query rows, a tile of 1024 dictionary rows (the keys) with their 1024 value rows,
  and the accumulator of the result tile.  Its arithmetic is, entry by entry:

    * the squared norm of each query row and of each dictionary row (a sum of 512 squares), the first kept as a column
      and spread along the rows of a 1024 × 1024 array, the second turned into a row and spread along its columns;
    * the 1024 × 1024 array of inner products ⟨x_p, keys_q⟩, a product that contracts the second axis of both tiles;
    * at (p, q): |x_p|² − 2·⟨x_p, keys_q⟩, plus |keys_q|², plus the small constant, and the reciprocal of that — which
      is, summand for summand in this order, the weight of dictionary row q for query row p;
    * the product of the weights by the values into a zero accumulator: at (p, c) the sum over q of
      weight(p, q) · values(q, c); and the old accumulator plus that.

  So the stored tile at (p, c) is the accumulator there plus the sum over the tile's 1024 dictionary rows of weight times
  value; and the tile stored at the first step is zero everywhere.  Each operation that is not entry-by-entry (a row
  sum, a cast that adds a unit axis, the transposition of a column, the two spreads, the two products) is read at an
  entry by one lemma below; the entry-by-entry operations read through by definition.
-/
import Idealize.ShloMosaic.PureOps.Ideal.Laws
import Idealize.ShloMosaic.Lib.ValueIdx
import Idealize.ShloMosaic.Lib.Pipeline.Value
import Idealize.ShloMosaic.Lib.ValueLayout
import proofs.«158417_j55602646614102_1_alg».proof.Proof.Spec
import proofs.«158417_j55602646614102_1_alg».proof.Proof.Gen.KernelIdeal.Skeleton
import proofs.«158417_j55602646614102_1_alg».proof.Proof.LibPlainDot
import proofs.«158417_j55602646614102_1_alg».proof.Proof.LibUnitAxes

noncomputable section

namespace Cert.Varkeys.Tile

open Idealize.ShloMosaic Idealize.ShloMosaic.ValueIdx Cert.KernelIdeal Cert.KernelIdeal.Gen

/-! ## The row sums and the unit axes -/

/-- The sum along the second axis of a 1024 × 512 array, at row p, is the sum over k < 512 of the array at (p, k). -/
theorem rowSum_apply (src : FVec Ideal S1024x512 .f32) (h : S1024x512.Reduces [1] S1024) (hφ : FKind.Formats .f32)
    (hacc : (0x00000000#32 : BitVec 32) = 0x00000000#32) (p : Fin 1024) :
    multiReduction .add [1] S1024 src 0x00000000#32 h hφ hacc (ix1 p) = ∑ k : Fin 512, src (ix2 p k) := by
  refine (Ideal.multiReduction_add_single src 0x00000000#32 h hφ hacc (ix1 p)).trans ?_
  refine Finset.sum_congr rfl fun k _ => congrArg src ?_
  funext a
  apply Fin.ext
  match a with
  | ⟨0, _⟩ => rfl
  | ⟨1, _⟩ => rfl

/-- Casting a 1024-array to a 1024 × 1 column moves no element: the column at (p, 0) is the array at p. -/
theorem castCol_apply (x : FVec Ideal S1024 .f32) (h : S1024.ShapeCasts S1024x1) (p : Fin 1024) (u : Fin 1) :
    shapeCast S1024x1 x h (ix2 p u) = x (ix1 p) :=
  shapeCast_apply x h (ix2 p u) (ix1 p) (by
    have hu := u.isLt
    rw [Shape.rowMajor_val_two, Shape.rowMajor_val_one]
    show p.val = p.val * 1 + u.val
    omega)

/-- The transposed column is a row: at (0, q) it is the column at (q, 0). -/
theorem transposeCol_apply (x : FVec Ideal S1024x1 .f32) (h : S1024x1.Transposes [1, 0] S1x1024) (u : Fin 1) (q : Fin 1024) :
    transpose S1x1024 [1, 0] x h (ix2 u q) = x (ix2 q (0 : Fin 1)) :=
  transpose_apply [1, 0] x h (ix2 u q) (ix2 q (0 : Fin 1)) fun b => by
    match b with
    | ⟨0, _⟩ =>
      have hu := u.isLt
      show (0 : ℕ) = u.val
      omega
    | ⟨1, _⟩ => rfl

/-! ## The two products -/

/-- The dimension numbers of the first product: the second axis of both operands is contracted. -/
abbrev D1 : DotDims S1024x512 S1024x512 S1024x1024 := dot_S1024x512_S1024x512_S1024x1024_1_1_0_0_n_n

/-- The dimension numbers of the second product: a plain matrix product. -/
abbrev D2 : DotDims S1024x1024 S1024x100 S1024x100 := dot_S1024x1024_S1024x100_S1024x100_1_0_0_1_n_n

/-- The left operand's row, for the first product, is the result's row. -/
theorem D1_lhs0 (j : S1024x1024.Idx) (k : D1.contr.Idx) : (D1.lhsIdx j k 0).val = (j 0).val := by
  unfold DotDims.lhsIdx
  rw [dif_neg (show ¬(0 : Fin S1024x512.rank) ∈ D1.lhsBatch by decide),
      dif_pos (show (0 : Fin S1024x512.rank) ∈ D1.lhsNonContracting by decide)]
  rfl

/-- The right operand's row, for the first product, is the result's column. -/
theorem D1_rhs0 (j : S1024x1024.Idx) (k : D1.contr.Idx) : (D1.rhsIdx j k 0).val = (j 1).val := by
  unfold DotDims.rhsIdx
  rw [dif_neg (show ¬(0 : Fin S1024x512.rank) ∈ D1.rhsBatch by decide),
      dif_pos (show (0 : Fin S1024x512.rank) ∈ D1.rhsNonContracting by decide)]
  rfl

/-- The first product into a zero accumulator, at (p, q): the inner product of row p of the left operand and row q of
    the right one. -/
theorem matmulRows_apply (l r : FVec Ideal S1024x512 .bf16) (p q : Fin 1024) :
    FloatOps.matmul D1 none l r (constant S1024x1024 .f32 0x00000000#32) (ix2 p q)
      = ∑ k : Fin 512, l (ix2 p k) * r (ix2 q k) := by
  refine (Ideal.matmul_constant_zero_apply D1 none l r (ix2 p q)).trans ?_
  rw [← Equiv.sum_comp (contrEquiv1 D1 512 rfl rfl).symm]
  refine Finset.sum_congr rfl fun k _ => ?_
  have hk := contrEquiv1_symm_val D1 512 rfl rfl k
  have el : D1.lhsIdx (ix2 p q) ((contrEquiv1 D1 512 rfl rfl).symm k) = ix2 p k := funext fun a => Fin.ext (by
    match a with
    | ⟨0, _⟩ => exact D1_lhs0 _ _
    | ⟨1, _⟩ => exact (D1.lhsIdx_val_of_single rfl _ _).trans hk)
  have er : D1.rhsIdx (ix2 p q) ((contrEquiv1 D1 512 rfl rfl).symm k) = ix2 q k := funext fun a => Fin.ext (by
    match a with
    | ⟨0, _⟩ => exact D1_rhs0 _ _
    | ⟨1, _⟩ => exact (D1.rhsIdx_val_of_single rfl _ _).trans hk)
  rw [el, er]

/-- The left operand's row, for the second product, is the result's row. -/
theorem D2_lhs0 (j : S1024x100.Idx) (k : D2.contr.Idx) : (D2.lhsIdx j k 0).val = (j 0).val := by
  unfold DotDims.lhsIdx
  rw [dif_neg (show ¬(0 : Fin S1024x1024.rank) ∈ D2.lhsBatch by decide),
      dif_pos (show (0 : Fin S1024x1024.rank) ∈ D2.lhsNonContracting by decide)]
  rfl

/-- The right operand's column, for the second product, is the result's column. -/
theorem D2_rhs1 (j : S1024x100.Idx) (k : D2.contr.Idx) : (D2.rhsIdx j k 1).val = (j 1).val := by
  unfold DotDims.rhsIdx
  rw [dif_neg (show ¬(1 : Fin S1024x100.rank) ∈ D2.rhsBatch by decide),
      dif_pos (show (1 : Fin S1024x100.rank) ∈ D2.rhsNonContracting by decide)]
  rfl

/-- The second product into a zero accumulator, at (p, c): the sum over q of the left operand at (p, q) times the right
    one at (q, c). -/
theorem matmulPlain_apply (l : FVec Ideal S1024x1024 .bf16) (r : FVec Ideal S1024x100 .bf16) (p : Fin 1024) (c : Fin 100) :
    FloatOps.matmul D2 none l r (constant S1024x100 .f32 0x00000000#32) (ix2 p c)
      = ∑ q : Fin 1024, l (ix2 p q) * r (ix2 q c) :=
  Cert.LibPlainDot.matmul_zero_apply D2 rfl rfl rfl rfl D2_lhs0 D2_rhs1 none l r p c

/-! ## The squared norms, as a column and as a row spread over the 1024 × 1024 array -/

/-- The row sums of the squares, cast to a column: at (p, 0) the squared norm of row p. -/
theorem sqCol_apply (x : FVec Ideal S1024x512 .f32) (h : S1024x512.Reduces [1] S1024) (hφ : FKind.Formats .f32)
    (hacc : (0x00000000#32 : BitVec 32) = 0x00000000#32) (hc : S1024.ShapeCasts S1024x1) (p : Fin 1024) (u : Fin 1) :
    shapeCast S1024x1 (multiReduction .add [1] S1024 (mulf x x) 0x00000000#32 h hφ hacc) hc (ix2 p u)
      = sqn (fun k => x (ix2 p k)) :=
  (castCol_apply _ hc p u).trans (rowSum_apply (mulf x x) h hφ hacc p)

/-- That column spread along the rows: at (p, q) the squared norm of row p. -/
theorem sqColSpread_apply (x : FVec Ideal S1024x512 .f32) (h : S1024x512.Reduces [1] S1024) (hφ : FKind.Formats .f32)
    (hacc : (0x00000000#32 : BitVec 32) = 0x00000000#32) (hc : S1024.ShapeCasts S1024x1)
    (hb : S1024x1.Broadcasts S1024x1024) (p q : Fin 1024) :
    broadcastTo S1024x1024 (shapeCast S1024x1 (multiReduction .add [1] S1024 (mulf x x) 0x00000000#32 h hφ hacc) hc) hb (ix2 p q)
      = sqn (fun k => x (ix2 p k)) :=
  (Cert.LibUnitAxes.broadcastTo_a1_ab_apply _ hb p q).trans (sqCol_apply x h hφ hacc hc p 0)

/-- That column transposed into a row and spread along the columns: at (p, q) the squared norm of row q. -/
theorem sqRowSpread_apply (x : FVec Ideal S1024x512 .f32) (h : S1024x512.Reduces [1] S1024) (hφ : FKind.Formats .f32)
    (hacc : (0x00000000#32 : BitVec 32) = 0x00000000#32) (hc : S1024.ShapeCasts S1024x1)
    (ht : S1024x1.Transposes [1, 0] S1x1024) (hb : S1x1024.Broadcasts S1024x1024) (p q : Fin 1024) :
    broadcastTo S1024x1024
        (transpose S1x1024 [1, 0] (shapeCast S1024x1 (multiReduction .add [1] S1024 (mulf x x) 0x00000000#32 h hφ hacc) hc) ht)
        hb (ix2 p q)
      = sqn (fun k => x (ix2 q k)) :=
  (broadcastTo_1b_ab_apply _ hb p q).trans ((transposeCol_apply _ ht 0 q).trans (sqCol_apply x h hφ hacc hc q 0))

/-! ## The stored tiles -/

/-- The tile stored at the first step is zero everywhere. -/
theorem pay1_apply (i : S1024x100.Idx) : k0_pay1 (F := Ideal) i = 0 := by
  unfold k0_pay1
  refine (congrFun (shapeCast_self _ _) i).trans ?_
  show Ideal.ofBits .f32 0x00000000#32 = 0
  exact Ideal.ofBits_zero_f32

/-- The tile stored at every step, at (p, c): the accumulator there plus the sum over the tile's dictionary rows q of
    the weight of row q for query row p times the value of row q at column c. -/
theorem pay2_apply (v3 v4 : Vec Ideal S1024x512 .f32) (v5 v29 : Vec Ideal S1024x100 .f32) (p : Fin 1024) (c : Fin 100) :
    k0_pay2 (F := Ideal) v3 v4 v5 v29 (ix2 p c)
      = v29 (ix2 p c) + ∑ q : Fin 1024, Cert.Varkeys.wgt (fun k => v3 (ix2 p k)) (fun k => v4 (ix2 q k)) * v5 (ix2 q c) := by
  unfold k0_pay2
  -- the last cast changes nothing, and the sum with the accumulator is entry by entry
  refine (congrFun (shapeCast_self _ _) (ix2 p c)).trans ?_
  refine congrArg (v29 (ix2 p c) + ·) ?_
  -- the second product, at (p, c)
  refine (matmulPlain_apply _ _ p c).trans ?_
  refine Finset.sum_congr rfl fun q _ => ?_
  refine congrArg (· * v5 (ix2 q c)) ?_
  -- the left factor at (p, q) is the reciprocal of the four summands in the kernel's order
  show Ideal.div one (((_ - two * _) + _) + eps) = _
  unfold Cert.Varkeys.wgt
  refine congrArg (Ideal.div one) (congrArg (· + eps) ?_)
  refine congrArg₂ (· + ·) (congrArg₂ (· - ·) ?_ (congrArg (two * ·) ?_)) ?_
  · exact sqColSpread_apply v3 _ _ _ _ _ p q
  · exact matmulRows_apply _ _ p q
  · exact sqRowSpread_apply v4 _ _ _ _ _ _ p q

end Cert.Varkeys.Tile

end
-- ==== Proof.KernelFold.lean ====
/-
  The accumulator over a run of sixteen grid points, and the block a run writes back.

  Grid point n (batch tile n / 16, dictionary tile n % 16) adds to the accumulator, at entry (p, j), the sum over the
  1024 rows q of its dictionary tile of  weight(x row 1024·(n / 16) + p, keys row 1024·(n % 16) + q) · values(1024·(n % 16) + q, j)
  — the addend of point n.  The first point of a run starts from zero, every later point from what the point before
  left; so after the point at offset s of a run the accumulator holds zero plus the addends of the run's points up to
  s, and after the sixteenth point the sum over all 16384 dictionary rows, tile by tile.  That point copies the
  accumulator into its output block, which is therefore the block of the specification's result at rows
  1024·(n / 16) ….
-/
import proofs.«158417_j55602646614102_1_alg».proof.Proof.Spec
import proofs.«158417_j55602646614102_1_alg».proof.Proof.KernelPieces
import proofs.«158417_j55602646614102_1_alg».proof.Proof.KernelBlocks
import proofs.«158417_j55602646614102_1_alg».proof.Proof.KernelTile
import proofs.«158417_j55602646614102_1_alg».proof.Proof.Gen.KernelIdeal.Value
import Idealize.ShloMosaic.Lib.Pipeline.Value
import Idealize.ShloMosaic.Lib.ValueIdx

noncomputable section

namespace Cert.KernelIdeal.Fold

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The three argument arrays on core c, as functions of an index into the extended reals. -/
abbrev argX (c : Dev nD) : Cert.Varkeys.SX.Idx → EReal := m ((c : Thread nD τ).loc main_arg0)
abbrev argK (c : Dev nD) : Cert.Varkeys.SK.Idx → EReal := m ((c : Thread nD τ).loc main_arg1)
abbrev argV (c : Dev nD) : Cert.Varkeys.SV.Idx → EReal := m ((c : Thread nD τ).loc main_arg2)

/-- THE ADDEND of grid point n at entry i = (p, j) of the accumulator: the sum over the rows q of dictionary tile
    n % 16 of the specification's term for result row 1024·(n / 16) + p, column j and dictionary row 1024·(n % 16) + q.
    (The batch tile is written modulo 4 so that the row is in range for every natural n; on the grid's 64 points
    this changes nothing.) -/
def addend (c : Dev nD) (n : ℕ) : S1024x100.Idx → EReal := fun i =>
  ∑ q : Fin 1024, Cert.Varkeys.term (argX m c) (argK m c) (argV m c)
    (⟨1024 * (n / 16 % 4) + (i 0).val, by have h : (i 0).val < 1024 := (i 0).isLt; omega⟩ : Fin 4096)
    (⟨(i 1).val, (i 1).isLt⟩ : Fin 100) (n % 16 * 1024 + q.val)

/-- The tile's contribution computed from the three input blocks of point t is the addend of t: each block entry is
    the entry of the whole array it sits at. -/
theorem tile_sum (c : Dev nD) (t : Fin cfg0.N) (p : Fin 1024) (j : Fin 100) :
    (∑ q : Fin 1024, Cert.Varkeys.wgt (fun k => (iblk m c 0 t : Vec Ideal S1024x512 .f32) (ix2 p k))
        (fun k => (iblk m c 1 t : Vec Ideal S1024x512 .f32) (ix2 q k)) * (iblk m c 2 t : Vec Ideal S1024x100 .f32) (ix2 q j))
      = addend m c t.val (ix2 p j) := by
  unfold addend
  refine Finset.sum_congr rfl fun q _ => ?_
  have hq : t.val % 16 * 1024 + q.val < 16384 := by have := q.isLt; omega
  have hp : 1024 * (t.val / 16 % 4) + p.val < 4096 := by have := p.isLt; omega
  unfold Cert.Varkeys.term
  rw [dif_pos hq]
  refine congrArg₂ (· * ·) (congrArg₂ Cert.Varkeys.wgt (funext fun k => ?_) (funext fun k => ?_)) ?_
  · exact Blocks.iblk0_apply m c t p k hp
  · exact Blocks.iblk1_apply m c t q k hq
  · exact Blocks.iblk2_apply m c t q j hq

/-- ONE STEP: what point n leaves in the accumulator over what it found there is — zero at the first point of a run,
    what it found otherwise — plus the addend of n. -/
theorem step (c : Dev nD) (n : ℕ) (hb : n < cfg0.N) (acc : Vec Ideal S1024x100 .f32) (i : S1024x100.Idx) :
    Value.scAt0_0 m c n hb acc i = (if n % 16 = 0 then 0 else acc i) + addend m c n i := by
  obtain ⟨p, j, rfl⟩ : ∃ (p : Fin 1024) (j : Fin 100), i = ix2 p j := ⟨i 0, i 1, eq_ix2 i⟩
  unfold Value.scAt0_0
  by_cases h0 : n % 16 = 0
  · have h1 : ¬n % 16 = 15 := by omega
    rw [dif_pos h0, dif_neg h1, if_pos h0]
    refine (congrFun (Pieces.sout_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N))) (ix2 p j)).trans ?_
    refine (Cert.Varkeys.Tile.pay2_apply _ _ _ _ p j).trans ?_
    rw [Cert.Varkeys.Tile.pay1_apply]
    exact congrArg (0 + ·) (tile_sum m c ⟨n, hb⟩ p j)
  · rw [if_neg h0]
    by_cases h1 : n % 16 = 15
    · rw [dif_neg h0, dif_pos h1]
      refine (congrFun (Pieces.sout_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc) (ix2 p j)).trans ?_
      refine (Cert.Varkeys.Tile.pay2_apply _ _ _ _ p j).trans ?_
      exact congrArg (acc (ix2 p j) + ·) (tile_sum m c ⟨n, hb⟩ p j)
    · rw [dif_neg h0, dif_neg h1]
      refine (congrFun (Pieces.sout_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc) (ix2 p j)).trans ?_
      refine (Cert.Varkeys.Tile.pay2_apply _ _ _ _ p j).trans ?_
      exact congrArg (acc (ix2 p j) + ·) (tile_sum m c ⟨n, hb⟩ p j)

/-- THE ACCUMULATOR after point t: zero plus the addends of the points of t's run up to t. -/
theorem acc_apply (c : Dev nD) (t : Fin cfg0.N) (i : S1024x100.Idx) :
    (outsAt0 m c t.val t.isLt).2 i
      = 0 + ∑ s ∈ Finset.range (t.val % 16 + 1), addend m c (16 * (t.val / 16) + s) i := by
  rw [Value.soutsAt0_0_eq m c t]
  refine Pipeline.accAt_add_apply (fun n h => Value.scAt0_0 m c n h (VS0_0.read (Elt Ideal) VS0_0.junk)) (Value.scAt0_0 m c)
    (fun _ => 0) (addend m c) (16 * (t.val / 16)) 15 (fun h i => ?_) (fun n h acc i hlo hhi => ?_) (t.val % 16) (by omega) _ i
  · rw [step, if_pos (by omega)]
  · rw [step, if_neg (by omega)]

/-- At the last point of a run the output block holds what the accumulator holds. -/
theorem out_eq_acc (c : Dev nD) (t : Fin cfg0.N) (h0 : ¬t.val % 16 = 0) (h1 : t.val % 16 = 15) :
    (outsAt0 m c t.val t.isLt).1 = (outsAt0 m c t.val t.isLt).2 := by
  rw [outsAt0_C m c t h0 h1]
  dsimp only
  rw [Pieces.out_C, Pieces.sout_C]

/-- THE BLOCK WRITTEN BACK by the last point t of a run, at entry (p, j): the specification's result at row
    1024·(t / 16) + p and column j — the sixteen addends are the sixteen tiles of the sum over the dictionary. -/
theorem out_apply (c : Dev nD) (t : Fin cfg0.N) (h1 : t.val % 16 = 15) (p : Fin 1024) (j : Fin 100)
    (hr : 1024 * (t.val / 16 % 4) + p.val < 4096) :
    (outsAt0 m c t.val t.isLt).1 (ix2 p j)
      = Cert.Varkeys.G (argX m c) (argK m c) (argV m c) (ix2 (⟨1024 * (t.val / 16 % 4) + p.val, hr⟩ : Fin 4096) j) := by
  rw [out_eq_acc m c t (by omega) h1, acc_apply, h1, zero_add, Cert.Varkeys.G_tiles, Finset.sum_range]
  refine Finset.sum_congr rfl fun s _ => ?_
  unfold addend
  refine Finset.sum_congr rfl fun q _ => ?_
  have hs : s.val < 16 := s.isLt
  have e1 : (16 * (t.val / 16) + s.val) / 16 = t.val / 16 := by omega
  have e2 : (16 * (t.val / 16) + s.val) % 16 = s.val := by omega
  simp only [e1, e2]

end Cert.KernelIdeal.Fold

end
-- ==== Proof.KernelResult.lean ====
/-
  The result array after the kernel's run.

  The points that write their output block back are the last points of the four runs; the block of the last point of
  batch tile b is rows 1024·b … 1024·b + 1023 of the result, and these four blocks tile the result.  Each holds the
  specification's values at its rows, so after the run the whole result array is the specification's result of the
  three argument arrays, which the run leaves unchanged.
-/
import proofs.«158417_j55602646614102_1_alg».proof.Proof.KernelFold

noncomputable section

namespace Cert.KernelIdeal.Result

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification's result of core c's three argument arrays, as contents of the result array. -/
abbrev result (c : Dev nD) : Buf (Elt Ideal) ((c : Thread nD τ).loc main_v0) :=
  Cert.Varkeys.G (Fold.argX m c) (Fold.argK m c) (Fold.argV m c)

/-- The output block of the last point t of a run, as one function of the block's index: the specification's result at
    row 1024·(t / 16) + (the block's row) and the block's column. -/
theorem out_fun (c : Dev nD) (t : Fin cfg0.N) (h1 : t.val % 16 = 15) :
    (outsAt0 m c t.val t.isLt).1 = fun i : S1024x100.Idx =>
      result m c (ix2 (⟨1024 * (t.val / 16 % 4) + (i 0).val, by have h : (i 0).val < 1024 := (i 0).isLt; omega⟩ : Fin 4096)
        (⟨(i 1).val, (i 1).isLt⟩ : Fin 100)) := by
  funext i
  obtain ⟨p, j, rfl⟩ : ∃ (p : Fin 1024) (j : Fin 100), i = ix2 p j := ⟨i 0, i 1, eq_ix2 i⟩
  exact Fold.out_apply m c t h1 p j _

/-- What a point that writes back writes is its block of the specification's result: entry (p, j) of the block of
    point t sits at entry (1024·(t / 16) + p, j) of the result. -/
theorem flushed_eq (c : Dev nD) (t : Fin cfg0.N) (hf : (cfg0.win 3).flush t = true) :
    (dats m 0 c).flushed 3 t = ((cfg0.win 3).blk t).view.read (Elt Ideal) (result m c) := by
  have h1 : t.val % 16 = 15 := (flush0_3 t).mp hf
  have hN : t.val < 64 := lt_of_lt_of_eq t.isLt N_0
  obtain ⟨-, -, -, -, -, -, e0, e1⟩ := Blocks.idx_facts t
  rw [Value.flushed3, out_fun m c t h1]
  generalize result m c = R
  funext y
  rw [View.read_apply]
  refine congrArg R (funext fun a => Fin.ext ?_)
  match a with
  | ⟨0, _⟩ => show 1024 * (t.val / 16 % 4) + (y 0).val = win0_3.index t 0 * 1024 + 1 * (y 0).val; rw [e0]; omega
  | ⟨1, _⟩ => show (y 1).val = win0_3.index t 1 * 100 + 1 * (y 1).val; rw [e1]; omega

/-- The result array after the run is the specification's result. -/
theorem final (c : Dev nD) : (dats m 0 c).arrAt 3 cfg0.N = result m c :=
  (dats m 0 c).arrAt_eq_of_cover 3 (result m c) (flushed_eq m c) Blocks.cover3

/-- THE KERNEL'S RUN: every weakly fair execution terminates with the result array at the specification's result of
    the argument arrays and the argument arrays unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.lean ====
/-
  The certificate's claim, assembled.

  Both idealized programs compute, at result entry (r, c), the sum over the 16384 dictionary rows j of
  weight(x_r, keys_j) · values(j, c) with weight(a, b) = 1 / (|a|² − 2⟨a, b⟩ + |b|² + ε) on the extended reals.
  The reference does so with two whole matrix products and adds |keys_j|² first and |x_r|² last; the kernel walks a
  4 × 16 grid, adds |x_r|² first and |keys_j|² last, and accumulates the sum over j tile by tile over the sixteen
  points of a run.  Sums and products of extended reals are commutative and associative, and a difference is the sum
  with the negative, so the two arrangements are one function of the arguments; no finiteness of the inputs is used.
  The frames are the generated ones (the reference's is its generated run with the result dropped); the ideal pass
  rewrote nothing, so the kernel's idealization claim is trivial.
-/
import proofs.«158417_j55602646614102_1_alg».proof.Defs
import proofs.«158417_j55602646614102_1_alg».proof.Proof.Gen.Kernel
import proofs.«158417_j55602646614102_1_alg».proof.Proof.Gen.Kernel.Skeleton
import proofs.«158417_j55602646614102_1_alg».proof.Proof.Gen.Kernel.Launch
import proofs.«158417_j55602646614102_1_alg».proof.Proof.Gen.Kernel.Points
import proofs.«158417_j55602646614102_1_alg».proof.Proof.Gen.Kernel.Frame
import proofs.«158417_j55602646614102_1_alg».proof.Proof.Gen.KernelIdeal
import proofs.«158417_j55602646614102_1_alg».proof.Proof.Gen.KernelIdeal.Skeleton
import proofs.«158417_j55602646614102_1_alg».proof.Proof.Gen.KernelIdeal.Launch
import proofs.«158417_j55602646614102_1_alg».proof.Proof.Gen.KernelIdeal.Points
import proofs.«158417_j55602646614102_1_alg».proof.Proof.Gen.KernelIdeal.Frame
import proofs.«158417_j55602646614102_1_alg».proof.Proof.Gen.ReferenceIdeal
import proofs.«158417_j55602646614102_1_alg».proof.Proof.Gen.Pre_finite_inputs
import proofs.«158417_j55602646614102_1_alg».proof.Proof.Gen.KernelIdeal.Value
import proofs.«158417_j55602646614102_1_alg».proof.Proof.Gen.ReferenceIdeal.Run
import proofs.«158417_j55602646614102_1_alg».proof.Proof.Gen.ReferenceIdeal.Read
import proofs.«158417_j55602646614102_1_alg».proof.Proof.RefIsSpec
import proofs.«158417_j55602646614102_1_alg».proof.Proof.KernelResult
import Idealize.ShloMosaic.Adequacy
import Idealize.ShloMosaic.Init

noncomputable section

namespace Cert.Proof

open Idealize.ShloMosaic Idealize.SL.Sem

/-- The word-level kernel terminates without a fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the three arguments, the idealized kernel's result array and the idealized reference's
    result both end at the specification's result of those arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.Varkeys.Ref.ref_eq_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
